-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_arg7 : FVec F S64x64 .f32) (main_arg8 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x64 .f32) (main_arg6 : FVec F S64 .f32) (main_arg7 : FVec F S64x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S50000x64 : Shape := ⟨2, ![50000, 64]⟩
abbrev S10000x64 : Shape := ⟨2, ![10000, 64]⟩
abbrev S850000x64 : Shape := ⟨2, ![850000, 64]⟩
abbrev S1x64 : Shape := ⟨2, ![1, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩

abbrev nBuf : Space → Nat
  | .hbm => 107
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S850000, .f32⟩
  | .hbm, ⟨18, _⟩ => ⟨S_, .f32⟩
  | .hbm, ⟨19, _⟩ => ⟨S50000, .f32⟩
  | .hbm, ⟨20, _⟩ => ⟨S850000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x64, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x64, .f32⟩
  | .hbm, ⟨78, _⟩ => ⟨S850000x1, .f32⟩
  | .hbm, ⟨79, _⟩ => ⟨S850000x64, .f32⟩
  | .hbm, ⟨80, _⟩ => ⟨S850000x64, .f32⟩
  | .hbm, ⟨81, _⟩ => ⟨S_, .f32⟩
  | .hbm, ⟨82, _⟩ => ⟨S50000x64, .f32⟩
  | .hbm, ⟨83, _⟩ => ⟨S850000x1, .i32⟩
  | .hbm, ⟨84, _⟩ => ⟨S50000x64, .f32⟩
  | .hbm, ⟨85, _⟩ => ⟨S1x64, .f32⟩
  | .hbm, ⟨86, _⟩ => ⟨S50000x64, .f32⟩
  | .hbm, ⟨87, _⟩ => ⟨S_, .f32⟩
  | .hbm, ⟨88, _⟩ => ⟨S512x64, .f32⟩
  | .hbm, ⟨89, _⟩ => ⟨S50000x1, .i32⟩
  | .hbm, ⟨90, _⟩ => ⟨S512x64, .f32⟩
  | .hbm, ⟨91, _⟩ => ⟨S_, .f32⟩
  | .hbm, ⟨92, _⟩ => ⟨S50000, .f32⟩
  | .hbm, ⟨93, _⟩ => ⟨S_, .f32⟩
  | .hbm, ⟨94, _⟩ => ⟨S512, .f32⟩
  | .hbm, ⟨95, _⟩ => ⟨S50000x1, .i32⟩
  | .hbm, ⟨96, _⟩ => ⟨S512, .f32⟩
  | .hbm, ⟨97, _⟩ => ⟨S_, .f32⟩
  | .hbm, ⟨98, _⟩ => ⟨S512, .f32⟩
  | .hbm, ⟨99, _⟩ => ⟨S512, .f32⟩
  | .hbm, ⟨100, _⟩ => ⟨S512x1, .f32⟩
  | .hbm, ⟨101, _⟩ => ⟨S512x64, .f32⟩
  | .hbm, ⟨102, _⟩ => ⟨S512x64, .f32⟩
  | .hbm, ⟨103, _⟩ => ⟨S512x64, .f32⟩
  | .hbm, ⟨104, _⟩ => ⟨S1x64, .f32⟩
  | .hbm, ⟨105, _⟩ => ⟨S512x64, .f32⟩
  | .hbm, ⟨106, _⟩ => ⟨S512x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x64_S512x64_1_0_0_1_n_n_wf : DotDims.WF S512x64 S64x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩
abbrev S512x64 : Shape := ⟨2, ![512, 64]⟩
abbrev S50000x1 : Shape := ⟨2, ![50000, 1]⟩
abbrev S512 : Shape := ⟨1, ![512]⟩
abbrev S512x1 : Shape := ⟨2, ![512, 1]⟩

abbrev nBuf : Space → Nat
  | .hbm => 152
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x64, .f32⟩
  | 6 => ⟨S64, .f32⟩
  | 7 => ⟨S64x64, .f32⟩
  | 8 => ⟨S64, .f32⟩
  | 9 => ⟨S50000x128, .f32⟩
  | 10 => ⟨S1x800000, .i32⟩
  | 11 => ⟨S800000, .i32⟩
  | 12 => ⟨S1x800000, .i32⟩
  | 13 => ⟨S800000, .i32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x64, .f32⟩
  | 73 => ⟨S1x800000, .i32⟩
  | 74 => ⟨S800000, .i32⟩
  | 75 => ⟨S1x800000, .i32⟩
  | 76 => ⟨S800000, .i32⟩
  | 77 => ⟨S50000, .i32⟩
  | 78 => ⟨S850000, .i32⟩
  | 79 => ⟨S850000, .i32⟩
  | 80 => ⟨S_, .f32⟩
  | 81 => ⟨S850000, .f32⟩
  | 82 => ⟨S_, .f32⟩
  | 83 => ⟨S50000, .f32⟩
  | 84 => ⟨S850000x1, .i32⟩
  | 85 => ⟨S50000, .f32⟩
  | 86 => ⟨S_, .f32⟩
  | 87 => ⟨S50000, .f32⟩
  | 88 => ⟨S50000, .i1⟩
  | 89 => ⟨S50000, .f32⟩
  | 90 => ⟨S_, .f32⟩
  | 91 => ⟨S_, .f32⟩
  | 92 => ⟨S50000, .f32⟩
  | 93 => ⟨S50000, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000, .f32⟩
  | 112 => ⟨S850000, .f32⟩
  | 113 => ⟨S_, .i32⟩
  | 114 => ⟨S850000, .i32⟩
  | 115 => ⟨S850000, .i1⟩
  | 116 => ⟨S_, .i32⟩
  | 117 => ⟨S850000, .i32⟩
  | 118 => ⟨S850000, .i32⟩
  | 119 => ⟨S850000, .i32⟩
  | 120 => ⟨S850000x1, .i32⟩
  | 121 => ⟨S850000x64, .f32⟩
  | 122 => ⟨S850000x1, .f32⟩
  | 123 => ⟨S850000x64, .f32⟩
  | 124 => ⟨S850000x64, .f32⟩
  | 125 => ⟨S_, .f32⟩
  | 126 => ⟨S50000x64, .f32⟩
  | 127 => ⟨S850000x1, .i32⟩
  | _ => ⟨S50000x128, .f32⟩

abbrev hbmTy0_1 (i : Nat) : BufTy := match i % 128 with
  | 0 => ⟨S50000x64, .f32⟩
  | 1 => ⟨S1x64, .f32⟩
  | 2 => ⟨S50000x64, .f32⟩
  | 3 => ⟨S50000x64, .f32⟩
  | 4 => ⟨S_, .f32⟩
  | 5 => ⟨S512x64, .f32⟩
  | 6 => ⟨S50000x1, .i32⟩
  | 7 => ⟨S512x64, .f32⟩
  | 8 => ⟨S_, .f32⟩
  | 9 => ⟨S50000, .f32⟩
  | 10 => ⟨S_, .f32⟩
  | 11 => ⟨S512, .f32⟩
  | 12 => ⟨S50000x1, .i32⟩
  | 13 => ⟨S512, .f32⟩
  | 14 => ⟨S_, .f32⟩
  | 15 => ⟨S512, .f32⟩
  | 16 => ⟨S512, .f32⟩
  | 17 => ⟨S512x1, .f32⟩
  | 18 => ⟨S512x64, .f32⟩
  | 19 => ⟨S512x64, .f32⟩
  | 20 => ⟨S512x64, .f32⟩
  | 21 => ⟨S1x64, .f32⟩
  | 22 => ⟨S512x64, .f32⟩
  | 23 => ⟨S512x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_17 : Ref sig .tc := ⟨.hbm, 113, rfl⟩
abbrev main_v79 : Ref sig .tc := ⟨.hbm, 114, rfl⟩
abbrev main_v80 : Ref sig .tc := ⟨.hbm, 115, rfl⟩
abbrev main_c_18 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_cst_20 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_21 : Ref sig .tc := ⟨.hbm, 136, rfl⟩
abbrev main_v98 : Ref sig .tc := ⟨.hbm, 137, rfl⟩
abbrev main_cst_22 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_23 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512x64 : S_.BroadcastsInDim S512x64 (![] : Fin 0 → Fin S512x64.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S1x64_S512x64_0_1 : S1x64.BroadcastsInDim S512x64 (![0, 1] : Fin 2 → Fin S512x64.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S512x64_S50000x1_S50000x64_1_0_0_1_wf : ScatterDims.WF S512x64 S50000x1 S50000x64 [1] [0] [0] 1
  scatter_S512_S50000x1_S50000_n_0_0_1_wf : ScatterDims.WF S512 S50000x1 S50000 [] [0] [0] 1
  dot_S512x64_S64x64_S512x64_1_0_0_1_n_n_wf : DotDims.WF S512x64 S64x64 S512x64 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf

class Facts : Prop extends Facts₀ where

variable [Facts]
-- ==== Proof.WholeRun.lean ====
/-
  The idealized kernel's whole run, read at its last boundary.

  @main is ten segments: stretches of host operations and four kernel regions. Every weakly fair execution runs them
  in order and terminates, and in the final state every buffer that outlives a region holds the contents the fold of
  the segments leaves there: a host stretch applies its operations to the contents it finds, a region replaces each of
  its output arrays by what its write-backs leave and keeps every other buffer. The result buffer and the arguments are
  among those buffers, so the run's result is that fold read at the result buffer.
-/
import proofs.«161826_j63333587747173_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and every final state holds, at each buffer
    that outlives the regions, the contents the fold of @main's segments leaves there. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The same run, read at the result buffer and at the nine arguments. -/
theorem run_result : θ_run defs (onTc (τ := τ) (main (F := F))) ⟨m, fun _ => 0, ρ⟩ (fun r => ∀ c : Dev nD,
      r.2.mem ((c.tc : Thread nD τ).loc main_v77) = W10 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v77 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)
    (run_boundary m ρ)

end Cert.KernelIdeal.WholeRun

end
-- ==== Proof.LibPlainDot.lean ====
/-
  A plain matrix product read at an index, on the extended reals.

  For dimension numbers that describe an ordinary product of an M x K matrix with a K x N matrix (no batch axes; the
  left operand contracts its axis 1, the right operand its axis 0), entry (p, q) of the product is
      sum over k < K of  a (p, k) * b (k, q).
  This holds for the accumulating product started from the all-zero block and for the host's product alike, and it
  uses nothing of real arithmetic beyond `0 + x = x`, so it holds at the infinities too.
-/
import Idealize.ShloMosaic.Lib.ValueIdx
import Idealize.ShloMosaic.PureOps.Ideal.Laws

namespace Idealize.ShloMosaic.PlainDot

open Idealize.ShloMosaic Idealize.ShloMosaic.ValueIdx

variable {sl sr so : Shape} (d : DotDims sl sr so)

/-- On the left operand's only non-contracting axis, with no batch axes, the left index reads the result index at
    position 0. -/
theorem lhsIdx_val_nonContracting {nl : Fin sl.rank} (hb : d.lhsBatch = []) (hn : d.lhsNonContracting = [nl])
    (h0 : 0 < so.rank) (j : so.Idx) (k : d.contr.Idx) : (d.lhsIdx j k nl).val = (j ⟨0, h0⟩).val := by
  have hmem : nl ∈ d.lhsNonContracting := by rw [hn]; exact List.mem_singleton.mpr rfl
  have hnb : nl ∉ d.lhsBatch := by rw [hb]; exact List.not_mem_nil
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- On the right operand's only non-contracting axis, with no batch axes and one left non-contracting axis, the right
    index reads the result index at position 1. -/
theorem rhsIdx_val_nonContracting {nl : Fin sl.rank} {nr : Fin sr.rank} (hlb : d.lhsBatch = []) (hrb : d.rhsBatch = [])
    (hln : d.lhsNonContracting = [nl]) (hrn : d.rhsNonContracting = [nr])
    (h1 : 1 < so.rank) (j : so.Idx) (k : d.contr.Idx) : (d.rhsIdx j k nr).val = (j ⟨1, h1⟩).val := by
  have hmem : nr ∈ d.rhsNonContracting := by rw [hrn]; exact List.mem_singleton.mpr rfl
  have hnb : nr ∉ d.rhsBatch := by rw [hrb]; exact List.not_mem_nil
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hrn])

section Plain

variable {M K N : Nat} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])
  (hr : D.contr.rank = 1) (hs : D.contr.size ⟨0, by omega⟩ = K)

include hlc hln hlb in
/-- The left operand's index at result entry (p, q) and contraction position k is (p, k). -/
theorem lhsIdx_eq (p : Fin M) (q : Fin N) (k : Fin K) :
    D.lhsIdx (ix2 p q) ((contrEquiv1 D K hr hs).symm k) = ix2 p k := by
  funext a
  apply Fin.ext
  match a with
  | ⟨0, _⟩ => exact lhsIdx_val_nonContracting D hlb hln Nat.zero_lt_two (ix2 p q) _
  | ⟨1, _⟩ => exact (D.lhsIdx_val_of_single hlc (ix2 p q) _).trans (contrEquiv1_symm_val D K hr hs k)

include hrc hln hrn hlb hrb in
/-- The right operand's index at result entry (p, q) and contraction position k is (k, q). -/
theorem rhsIdx_eq (p : Fin M) (q : Fin N) (k : Fin K) :
    D.rhsIdx (ix2 p q) ((contrEquiv1 D K hr hs).symm k) = ix2 k q := by
  funext a
  apply Fin.ext
  match a with
  | ⟨0, _⟩ => exact (D.rhsIdx_val_of_single hrc (ix2 p q) _).trans (contrEquiv1_symm_val D K hr hs k)
  | ⟨1, _⟩ => exact rhsIdx_val_nonContracting D hlb hrb hln hrn Nat.one_lt_two (ix2 p q) _

include hlc hrc hln hrn hlb hrb hr hs in
/-- The sum over the contraction index is the sum over k < K of a (p, k) * b (k, q). -/
theorem sum_contr {φ₁ φ₂ : FTy} (a : FVec Ideal ⟨2, ![M, K]⟩ φ₁) (b : FVec Ideal ⟨2, ![K, N]⟩ φ₂) (p : Fin M) (q : Fin N) :
    (∑ k : D.contr.Idx, a (D.lhsIdx (ix2 p q) k) * b (D.rhsIdx (ix2 p q) k) : EReal)
      = ∑ k : Fin K, a (ix2 p k) * b (ix2 k q) := by
  rw [← Equiv.sum_comp (contrEquiv1 D K hr hs).symm]
  refine Finset.sum_congr rfl fun k _ => ?_
  rw [lhsIdx_eq D hlc hln hlb hr hs p q k, rhsIdx_eq D hrc hln hrn hlb hrb hr hs p q k]

include hlc hrc hln hrn hlb hrb hr hs in
/-- The accumulating product started from the all-zero block, at entry (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul D prec a b (constant ⟨2, ![M, N]⟩ .f32 0x00000000#32) (ix2 p q) = ∑ k : Fin K, a (ix2 p k) * b (ix2 k q) :=
  (Ideal.matmul_constant_zero_apply D prec a b (ix2 p q)).trans (sum_contr D hlc hrc hln hrn hlb hrb hr hs a b p q)

include hlc hrc hln hrn hlb hrb hr hs in
/-- The host's product, at entry (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral D prec sched a b (ix2 p q) = ∑ k : Fin K, a (ix2 p k) * b (ix2 k q) :=
  (Ideal.dotGeneral_apply D prec sched a b (ix2 p q)).trans (sum_contr D hlc hrc hln hrn hlb hrb hr hs a b p q)

end Plain

end Idealize.ShloMosaic.PlainDot
-- ==== Proof.RegionArrays.lean ====
/-
  What each of the four kernel regions leaves in its output array, as one function of the arrays it found.

  Every region runs five grid points. At point t it stages rows 10000·t … 10000·t + 9999 of its first operand, the
  whole of its small second operand, computes a block of 10000 rows and writes it back to rows 10000·t … of the output.
  A matrix-product region's block is (rows of a) times w, a sum over the 128 shared positions; a bias region's block
  adds the one row b to every row (and takes the maximum with 0 in the first layer). Row r of the output depends
  only on row r of the first operand, so block t of the whole product (or whole sum) is what point t writes, and
  the five blocks tile the 50000 rows.
-/
import proofs.«161826_j63333587747173_1_alg».proof.Proof.Gen.KernelIdeal.Frame
import proofs.«161826_j63333587747173_1_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-! ## Region 0 -/

/-- Where region 0's blocks sit, decided over its five grid points: at point `t` the row window of the input and
    of the output are both at block row `t`, block column 0; the small operand's window stays at block (0, 0). -/
theorem blockAt0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 5 :=
  (by decide +kernel : ∀ t : Fin grid0.N, _)

/-- Every block row below 5 is some point's. -/
theorem pointOfRow0 : ∀ q : Fin 5, ∃ t : Fin cfg0.N, t.val = q.val :=
  (by decide +kernel : ∀ q : Fin 5, ∃ t : Fin grid0.N, t.val = q.val)

/-- The whole array region 0 leaves: entry (p, q) is the sum over k of a (p, k) · w (k, q). -/
def rowsTimes0 (a : FVec Ideal S50000x128 .f32) (w : FVec Ideal S128x128 .f32) : FVec Ideal S50000x128 .f32 :=
  fun i => ∑ k : Fin 128, a (ix2 (i 0) k) * w (ix2 k (i 1))

/-- The body's stored value at an entry of the block: the block's row times the small operand's column (the
    changes of float format are the identity on the extended reals, and the accumulator starts at zero). -/
theorem stored0_at (x0 : Vec Ideal S10000x128 .f32) (x1 : Vec Ideal S128x128 .f32) (y : S10000x128.Idx) :
    k0_pay1 x0 x1 y = ∑ k : Fin 128, x0 (ix2 (y 0) k) * x1 (ix2 k (y 1)) := by
  obtain ⟨p, q, rfl⟩ : ∃ (p : Fin 10000) (q : Fin 128), y = ix2 p q := ⟨y 0, y 1, eq_ix2 y⟩
  unfold k0_pay1
  try simp only [shapeCast_self]
  exact PlainDot.matmul_zero_apply dot_S10000x128_S128x128_S10000x128_1_0_0_1_n_n rfl rfl rfl rfl rfl rfl rfl rfl none _ _ p q

/-- What point `t` writes back is block `t` of that whole array. -/
theorem flushed0 (c : Dev nD) (t : Fin cfg0.N) :
    (dat0 V c).flushed 2 t = ((cfg0.win 2).blk t).view.read (Elt Ideal) (rowsTimes0 (V c main_arg0) (V c main_arg3)) := by
  show (cfg0.win 2).cut (grid0.coords t) ((dat0 V c).after 2 t) = _
  rw [after0_2]
  unfold out0_2
  rw [View.canon_unit_zero zeros2]
  simp only [View.ld_unit_zero (S := S10000x128) zeros2, View.ld_unit_zero (S := S128x128) zeros2]
  obtain ⟨e0, e1, e2, e3, e4, e5, e6⟩ := blockAt0 t
  funext j
  show k0_pay1 (iblk0 V c 0 t) (iblk0 V c 1 t) j = rowsTimes0 (V c main_arg0) (V c main_arg3) (((cfg0.win 2).blk t).view.emb j)
  refine (stored0_at (iblk0 V c 0 t) (iblk0 V c 1 t) j).trans ?_
  unfold rowsTimes0
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  exact (show ∀ (A : FVec Ideal S50000x128 .f32) (W : FVec Ideal S128x128 .f32),
      A (((cfg0.win 0).blk t).view.emb (ix2 (j 0) k)) * W (((cfg0.win 1).blk t).view.emb (ix2 k (j 1)))
        = A (ix2 ((((cfg0.win 2).blk t).view.emb j) 0) k) * W (ix2 k ((((cfg0.win 2).blk t).view.emb j) 1))
      from fun A W => by rw [h0, h1] <;> rfl) (V c main_arg0) (V c main_arg3)

/-- An index of the output array is in point `t`'s block iff each coordinate is in the block's range on its axis. -/
theorem inBlock0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- The five row blocks cover the output array: row `r` is in the block of point `r / 10000`. -/
theorem covered0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := pointOfRow0 ⟨(i 0).val / 10000, by omega⟩
  have ht' : t.val = (i 0).val / 10000 := ht
  obtain ⟨e0, e1, e2, e3, e4, e5, e6⟩ := blockAt0 t
  refine ⟨t, flush0_2 t, ?_⟩
  rw [inBlock0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- So after region 0 its output array holds that whole array of the two arrays the region found. -/
theorem array0 (c : Dev nD) :
    (dat0 V c).arrAt 2 cfg0.N = rowsTimes0 (V c main_arg0) (V c main_arg3) :=
  (dat0 V c).arrAt_eq_of_cover 2 (rowsTimes0 (V c main_arg0) (V c main_arg3)) (fun t _ => flushed0 V c t) covered0

/-! ## Region 1 -/

/-- Where region 1's blocks sit, decided over its five grid points: at point `t` the row window of the input and
    of the output are both at block row `t`, block column 0; the small operand's window stays at block (0, 0). -/
theorem blockAt1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 5 :=
  (by decide +kernel : ∀ t : Fin grid1.N, _)

/-- Every block row below 5 is some point's. -/
theorem pointOfRow1 : ∀ q : Fin 5, ∃ t : Fin cfg1.N, t.val = q.val :=
  (by decide +kernel : ∀ q : Fin 5, ∃ t : Fin grid1.N, t.val = q.val)

/-- The whole array region 1 leaves: entry (p, q) is a (p, q) + b (q), or 0 if that is larger. The small operand of the
    region is `b` as one row, [128] recast to [1, 128]. -/
def plusRow1 (a : FVec Ideal S50000x128 .f32) (b : FVec Ideal S128 .f32) : FVec Ideal S50000x128 .f32 :=
  fun i => max (a i + b (ix1 (i 1))) (Scalar.ofBits (F := Ideal) .f32 0x00000000#32)

/-- The body's stored value at an entry of the block: the entry plus the one row's entry in that column, against 0. -/
theorem stored1_at (x0 : Vec Ideal S10000x128 .f32) (x1 : Vec Ideal S1x128 .f32) (y : S10000x128.Idx) :
    k1_pay1 x0 x1 y = max (x0 y + x1 (ix2 (0 : Fin 1) (y 1))) (Scalar.ofBits (F := Ideal) .f32 0x00000000#32) := by
  obtain ⟨p, q, rfl⟩ : ∃ (p : Fin 10000) (q : Fin 128), y = ix2 p q := ⟨y 0, y 1, eq_ix2 y⟩
  unfold k1_pay1
  simp only [shapeCast_self]
  show max (x0 (ix2 p q) + broadcastTo S10000x128 x1 broadcasts_S1x128_S10000x128 (ix2 p q)) _ = _
  rw [broadcastTo_1b_ab_apply x1 broadcasts_S1x128_S10000x128 p q]
  rfl

/-- What point `t` writes back is block `t` of that whole array. -/
theorem flushed1 (c : Dev nD) (b : FVec Ideal S128 .f32) (hb : ∀ q : Fin 128, V c main_v44 (ix2 (0 : Fin 1) q) = b (ix1 q)) (t : Fin cfg1.N) :
    (dat1 V c).flushed 2 t = ((cfg1.win 2).blk t).view.read (Elt Ideal) (plusRow1 (V c main_v43) (b)) := by
  show (cfg1.win 2).cut (grid1.coords t) ((dat1 V c).after 2 t) = _
  rw [after1_2]
  unfold out1_2
  rw [View.canon_unit_zero zeros2]
  simp only [View.ld_unit_zero (S := S10000x128) zeros2, View.ld_unit_zero (S := S1x128) zeros2]
  obtain ⟨e0, e1, e2, e3, e4, e5, e6⟩ := blockAt1 t
  funext j
  show k1_pay1 (iblk1 V c 0 t) (iblk1 V c 1 t) j = plusRow1 (V c main_v43) (b) (((cfg1.win 2).blk t).view.emb j)
  refine (stored1_at (iblk1 V c 0 t) (iblk1 V c 1 t) j).trans ?_
  unfold plusRow1
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (0 : Fin 1) (j 1)) = ix2 (0 : Fin 1) ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  exact (show ∀ (A : FVec Ideal S50000x128 .f32) (R : FVec Ideal S1x128 .f32), (∀ q : Fin 128, R (ix2 (0 : Fin 1) q) = b (ix1 q)) →
      max (A (((cfg1.win 0).blk t).view.emb j) + R (((cfg1.win 1).blk t).view.emb (ix2 (0 : Fin 1) (j 1)))) (Scalar.ofBits (F := Ideal) .f32 0x00000000#32)
        = max (A (((cfg1.win 2).blk t).view.emb j) + b (ix1 ((((cfg1.win 2).blk t).view.emb j) 1))) (Scalar.ofBits (F := Ideal) .f32 0x00000000#32)
      from fun A R hR => by rw [h0, h1]; exact congrArg (fun z => max (A (((cfg1.win 2).blk t).view.emb j) + z) (Scalar.ofBits (F := Ideal) .f32 0x00000000#32)) (hR (((cfg1.win 2).blk t).view.emb j 1))) (V c main_v43) (V c main_v44) hb

/-- An index of the output array is in point `t`'s block iff each coordinate is in the block's range on its axis. -/
theorem inBlock1 (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- The five row blocks cover the output array: row `r` is in the block of point `r / 10000`. -/
theorem covered1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := pointOfRow1 ⟨(i 0).val / 10000, by omega⟩
  have ht' : t.val = (i 0).val / 10000 := ht
  obtain ⟨e0, e1, e2, e3, e4, e5, e6⟩ := blockAt1 t
  refine ⟨t, flush1_2 t, ?_⟩
  rw [inBlock1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- So after region 1 its output array holds that whole array of the two arrays the region found. -/
theorem array1 (c : Dev nD) (b : FVec Ideal S128 .f32) (hb : ∀ q : Fin 128, V c main_v44 (ix2 (0 : Fin 1) q) = b (ix1 q)) :
    (dat1 V c).arrAt 2 cfg1.N = plusRow1 (V c main_v43) (b) :=
  (dat1 V c).arrAt_eq_of_cover 2 (plusRow1 (V c main_v43) (b)) (fun t _ => flushed1 V c b hb t) covered1

/-! ## Region 2 -/

/-- Where region 2's blocks sit, decided over its five grid points: at point `t` the row window of the input and
    of the output are both at block row `t`, block column 0; the small operand's window stays at block (0, 0). -/
theorem blockAt2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 5 :=
  (by decide +kernel : ∀ t : Fin grid2.N, _)

/-- Every block row below 5 is some point's. -/
theorem pointOfRow2 : ∀ q : Fin 5, ∃ t : Fin cfg2.N, t.val = q.val :=
  (by decide +kernel : ∀ q : Fin 5, ∃ t : Fin grid2.N, t.val = q.val)

/-- The whole array region 2 leaves: entry (p, q) is the sum over k of a (p, k) · w (k, q). -/
def rowsTimes2 (a : FVec Ideal S50000x128 .f32) (w : FVec Ideal S128x64 .f32) : FVec Ideal S50000x64 .f32 :=
  fun i => ∑ k : Fin 128, a (ix2 (i 0) k) * w (ix2 k (i 1))

/-- The body's stored value at an entry of the block: the block's row times the small operand's column (the
    changes of float format are the identity on the extended reals, and the accumulator starts at zero). -/
theorem stored2_at (x0 : Vec Ideal S10000x128 .f32) (x1 : Vec Ideal S128x64 .f32) (y : S10000x64.Idx) :
    k2_pay1 x0 x1 y = ∑ k : Fin 128, x0 (ix2 (y 0) k) * x1 (ix2 k (y 1)) := by
  obtain ⟨p, q, rfl⟩ : ∃ (p : Fin 10000) (q : Fin 64), y = ix2 p q := ⟨y 0, y 1, eq_ix2 y⟩
  unfold k2_pay1
  try simp only [shapeCast_self]
  exact PlainDot.matmul_zero_apply dot_S10000x128_S128x64_S10000x64_1_0_0_1_n_n rfl rfl rfl rfl rfl rfl rfl rfl none _ _ p q

/-- What point `t` writes back is block `t` of that whole array. -/
theorem flushed2 (c : Dev nD) (t : Fin cfg2.N) :
    (dat2 V c).flushed 2 t = ((cfg2.win 2).blk t).view.read (Elt Ideal) (rowsTimes2 (V c main_v45) (V c main_arg5)) := by
  show (cfg2.win 2).cut (grid2.coords t) ((dat2 V c).after 2 t) = _
  rw [after2_2]
  unfold out2_2
  rw [View.canon_unit_zero zeros2]
  simp only [View.ld_unit_zero (S := S10000x128) zeros2, View.ld_unit_zero (S := S128x64) zeros2]
  obtain ⟨e0, e1, e2, e3, e4, e5, e6⟩ := blockAt2 t
  funext j
  show k2_pay1 (iblk2 V c 0 t) (iblk2 V c 1 t) j = rowsTimes2 (V c main_v45) (V c main_arg5) (((cfg2.win 2).blk t).view.emb j)
  refine (stored2_at (iblk2 V c 0 t) (iblk2 V c 1 t) j).trans ?_
  unfold rowsTimes2
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  exact (show ∀ (A : FVec Ideal S50000x128 .f32) (W : FVec Ideal S128x64 .f32),
      A (((cfg2.win 0).blk t).view.emb (ix2 (j 0) k)) * W (((cfg2.win 1).blk t).view.emb (ix2 k (j 1)))
        = A (ix2 ((((cfg2.win 2).blk t).view.emb j) 0) k) * W (ix2 k ((((cfg2.win 2).blk t).view.emb j) 1))
      from fun A W => by rw [h0, h1] <;> rfl) (V c main_v45) (V c main_arg5)

/-- An index of the output array is in point `t`'s block iff each coordinate is in the block's range on its axis. -/
theorem inBlock2 (t : Fin cfg2.N) (i : S50000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v46).slice (win2_2.rect t)).set ↔ _
  rw [View.set_slice_whole, Rect.mem_set_unit]
  exact Iff.rfl

/-- The five row blocks cover the output array: row `r` is in the block of point `r / 10000`. -/
theorem covered2 (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  obtain ⟨t, ht⟩ := pointOfRow2 ⟨(i 0).val / 10000, by omega⟩
  have ht' : t.val = (i 0).val / 10000 := ht
  obtain ⟨e0, e1, e2, e3, e4, e5, e6⟩ := blockAt2 t
  refine ⟨t, flush2_2 t, ?_⟩
  rw [inBlock2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- So after region 2 its output array holds that whole array of the two arrays the region found. -/
theorem array2 (c : Dev nD) :
    (dat2 V c).arrAt 2 cfg2.N = rowsTimes2 (V c main_v45) (V c main_arg5) :=
  (dat2 V c).arrAt_eq_of_cover 2 (rowsTimes2 (V c main_v45) (V c main_arg5)) (fun t _ => flushed2 V c t) covered2

/-! ## Region 3 -/

/-- Where region 3's blocks sit, decided over its five grid points: at point `t` the row window of the input and
    of the output are both at block row `t`, block column 0; the small operand's window stays at block (0, 0). -/
theorem blockAt3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 5 :=
  (by decide +kernel : ∀ t : Fin grid3.N, _)

/-- Every block row below 5 is some point's. -/
theorem pointOfRow3 : ∀ q : Fin 5, ∃ t : Fin cfg3.N, t.val = q.val :=
  (by decide +kernel : ∀ q : Fin 5, ∃ t : Fin grid3.N, t.val = q.val)

/-- The whole array region 3 leaves: entry (p, q) is a (p, q) + b (q). The small operand of the
    region is `b` as one row, [64] recast to [1, 64]. -/
def plusRow3 (a : FVec Ideal S50000x64 .f32) (b : FVec Ideal S64 .f32) : FVec Ideal S50000x64 .f32 :=
  fun i => a i + b (ix1 (i 1))

/-- The body's stored value at an entry of the block: the entry plus the one row's entry in that column. -/
theorem stored3_at (x0 : Vec Ideal S10000x64 .f32) (x1 : Vec Ideal S1x64 .f32) (y : S10000x64.Idx) :
    k3_pay1 x0 x1 y = x0 y + x1 (ix2 (0 : Fin 1) (y 1)) := by
  obtain ⟨p, q, rfl⟩ : ∃ (p : Fin 10000) (q : Fin 64), y = ix2 p q := ⟨y 0, y 1, eq_ix2 y⟩
  unfold k3_pay1
  simp only [shapeCast_self]
  show x0 (ix2 p q) + broadcastTo S10000x64 x1 broadcasts_S1x64_S10000x64 (ix2 p q) = _
  rw [broadcastTo_1b_ab_apply x1 broadcasts_S1x64_S10000x64 p q]

/-- What point `t` writes back is block `t` of that whole array. -/
theorem flushed3 (c : Dev nD) (b : FVec Ideal S64 .f32) (hb : ∀ q : Fin 64, V c main_v60 (ix2 (0 : Fin 1) q) = b (ix1 q)) (t : Fin cfg3.N) :
    (dat3 V c).flushed 2 t = ((cfg3.win 2).blk t).view.read (Elt Ideal) (plusRow3 (V c main_v59) (b)) := by
  show (cfg3.win 2).cut (grid3.coords t) ((dat3 V c).after 2 t) = _
  rw [after3_2]
  unfold out3_2
  rw [View.canon_unit_zero zeros2]
  simp only [View.ld_unit_zero (S := S10000x64) zeros2, View.ld_unit_zero (S := S1x64) zeros2]
  obtain ⟨e0, e1, e2, e3, e4, e5, e6⟩ := blockAt3 t
  funext j
  show k3_pay1 (iblk3 V c 0 t) (iblk3 V c 1 t) j = plusRow3 (V c main_v59) (b) (((cfg3.win 2).blk t).view.emb j)
  refine (stored3_at (iblk3 V c 0 t) (iblk3 V c 1 t) j).trans ?_
  unfold plusRow3
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb (ix2 (0 : Fin 1) (j 1)) = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  exact (show ∀ (A : FVec Ideal S50000x64 .f32) (R : FVec Ideal S1x64 .f32), (∀ q : Fin 64, R (ix2 (0 : Fin 1) q) = b (ix1 q)) →
      A (((cfg3.win 0).blk t).view.emb j) + R (((cfg3.win 1).blk t).view.emb (ix2 (0 : Fin 1) (j 1)))
        = A (((cfg3.win 2).blk t).view.emb j) + b (ix1 ((((cfg3.win 2).blk t).view.emb j) 1))
      from fun A R hR => by rw [h0, h1]; exact congrArg (fun z => A (((cfg3.win 2).blk t).view.emb j) + z) (hR (((cfg3.win 2).blk t).view.emb j 1))) (V c main_v59) (V c main_v60) hb

/-- An index of the output array is in point `t`'s block iff each coordinate is in the block's range on its axis. -/
theorem inBlock3 (t : Fin cfg3.N) (i : S50000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v61).slice (win3_2.rect t)).set ↔ _
  rw [View.set_slice_whole, Rect.mem_set_unit]
  exact Iff.rfl

/-- The five row blocks cover the output array: row `r` is in the block of point `r / 10000`. -/
theorem covered3 (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ := pointOfRow3 ⟨(i 0).val / 10000, by omega⟩
  have ht' : t.val = (i 0).val / 10000 := ht
  obtain ⟨e0, e1, e2, e3, e4, e5, e6⟩ := blockAt3 t
  refine ⟨t, flush3_2 t, ?_⟩
  rw [inBlock3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- So after region 3 its output array holds that whole array of the two arrays the region found. -/
theorem array3 (c : Dev nD) (b : FVec Ideal S64 .f32) (hb : ∀ q : Fin 64, V c main_v60 (ix2 (0 : Fin 1) q) = b (ix1 q)) :
    (dat3 V c).arrAt 2 cfg3.N = plusRow3 (V c main_v59) (b) :=
  (dat3 V c).arrAt_eq_of_cover 2 (plusRow3 (V c main_v59) (b)) (fun t _ => flushed3 V c b hb t) covered3

end Cert.KernelIdeal.Rows

end
-- ==== Proof.Stages.lean ====
/-
  The graph network's host steps as named functions, and the reference's result as their composition.

  Both programs compute, on the extended reals,
      pool ( layer₂ ( relu ( layer₁ x ) ) ) · Wl + bl,       layerᵢ h = propagate (h · Wᵢ) + bᵢ,
  where `propagate` gathers each edge's source row, scales it by the edge's weight and adds it into the edge's
  destination row (850000 edges: the 800000 given ones and one self loop per node), an edge's weight is the product of
  its two endpoints' inverse square-root degrees (0 for a node of degree 0), and `pool` averages the rows of each of
  the 512 graphs. The reference does every step on the host; this file names those steps, each by the very operations
  the reference is printed with, and states the reference's result as their composition.
-/
import proofs.«161826_j63333587747173_1_alg».proof.Proof.ReferenceRun
import Idealize.ShloMosaic.PureOps.Ideal

set_option maxRecDepth 16384

noncomputable section

namespace Cert.Stages

open Cert.ReferenceIdeal Cert.ReferenceIdeal.Gen Idealize.ShloMosaic Idealize.ShloMosaic.TcCoe Idealize.SL.Sem

/-- The source node of each of the 850000 edges: row 0 of the edge table, then one self loop per node. -/
def srcEnds (ei : Vec Ideal S2x800000 .i32) : Vec Ideal S850000 .i32 :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The destination node of each of the 850000 edges: row 1 of the edge table, then one self loop per node. -/
def dstEnds (ei : Vec Ideal S2x800000 .i32) : Vec Ideal S850000 .i32 :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A node index as a gather reads it: a negative one counts from the end. -/
def wrapped (v : Vec Ideal S850000 .i32) : Vec Ideal S850000x1 .i32 :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- A node's degree: the number of edges that end at it. -/
def degree (ei : Vec Ideal S2x800000 .i32) : FVec Ideal S50000 .f32 :=
  Host.scatterAdd scatter_S50000_S850000x1_S850000_n_0_0_1 (broadcastInDim S50000 ![] bcast_S_S50000 (constant (F := Ideal) S_ .f32 0x00000000#32)) (broadcastInDim S850000x1 ![0] bcast_S850000_S850000x1_0 (dstEnds ei)) (broadcastInDim S850000 ![] bcast_S_S850000 (constant (F := Ideal) S_ .f32 0x3F800000#32))

/-- 1 / sqrt(degree) where the degree is positive, 0 elsewhere. -/
def invSqrtDegree (ei : Vec Ideal S2x800000 .i32) : FVec Ideal S50000 .f32 :=
  select (cmpf .ogt (degree ei) (broadcastInDim S50000 ![] bcast_S_S50000 (constant (F := Ideal) S_ .f32 0x00000000#32))) (Host.rsqrt (degree ei)) (broadcastInDim S50000 ![] bcast_S_S50000 (id (constant (F := Ideal) S_ .f32 0x00000000#32)))

/-- An edge's weight: the product of its two endpoints' inverse square-root degrees. -/
def edgeWeight (ei : Vec Ideal S2x800000 .i32) : FVec Ideal S850000 .f32 :=
  mulf (Host.gather gather_S50000_S850000x1_S850000_n_0_n_n_0_1_1 (invSqrtDegree ei) (wrapped (srcEnds ei))) (Host.gather gather_S50000_S850000x1_S850000_n_0_n_n_0_1_1 (invSqrtDegree ei) (wrapped (dstEnds ei)))

/-- One propagation over 128 features: each edge's source row, scaled by the edge's weight, added into its destination row. -/
def propagate128 (h : FVec Ideal S50000x128 .f32) (ei : Vec Ideal S2x800000 .i32) : FVec Ideal S50000x128 .f32 :=
  Host.scatterAdd scatter_S50000x128_S850000x1_S850000x128_1_0_0_1 (broadcastInDim S50000x128 ![] bcast_S_S50000x128 (constant (F := Ideal) S_ .f32 0x00000000#32)) (broadcastInDim S850000x1 ![0] bcast_S850000_S850000x1_0 (dstEnds ei)) (mulf (Host.gather gather_S50000x128_S850000x1_S850000x128_1_0_n_n_0_1_1128 h (wrapped (srcEnds ei))) (broadcastInDim S850000x128 ![0, 1] bcast_S850000x1_S850000x128_0_1 (broadcastInDim S850000x1 ![0] bcast_S850000_S850000x1_0 (edgeWeight ei))))

/-- The same over 64 features. -/
def propagate64 (h : FVec Ideal S50000x64 .f32) (ei : Vec Ideal S2x800000 .i32) : FVec Ideal S50000x64 .f32 :=
  Host.scatterAdd scatter_S50000x64_S850000x1_S850000x64_1_0_0_1 (broadcastInDim S50000x64 ![] bcast_S_S50000x64 (constant (F := Ideal) S_ .f32 0x00000000#32)) (broadcastInDim S850000x1 ![0] bcast_S850000_S850000x1_0 (dstEnds ei)) (mulf (Host.gather gather_S50000x64_S850000x1_S850000x64_1_0_n_n_0_1_164 h (wrapped (srcEnds ei))) (broadcastInDim S850000x64 ![0, 1] bcast_S850000x1_S850000x64_0_1 (broadcastInDim S850000x1 ![0] bcast_S850000_S850000x1_0 (edgeWeight ei))))

/-- A bias added to every row, then the maximum with 0 (first layer). -/
def biasRelu128 (a : FVec Ideal S50000x128 .f32) (b : FVec Ideal S128 .f32) : FVec Ideal S50000x128 .f32 :=
  maximumf (addf a (broadcastInDim S50000x128 ![0, 1] bcast_S1x128_S50000x128_0_1 (broadcastInDim S1x128 ![1] bcast_S128_S1x128_1 b))) (broadcastInDim S50000x128 ![] bcast_S_S50000x128 (constant (F := Ideal) S_ .f32 0x00000000#32))

/-- A bias added to every row (second layer). -/
def bias64 (a : FVec Ideal S50000x64 .f32) (b : FVec Ideal S64 .f32) : FVec Ideal S50000x64 .f32 :=
  addf a (broadcastInDim S50000x64 ![0, 1] bcast_S1x64_S50000x64_0_1 (broadcastInDim S1x64 ![1] bcast_S64_S1x64_1 b))

/-- The two dense products. -/
def dense128 (x : FVec Ideal S50000x128 .f32) (w : FVec Ideal S128x128 .f32) : FVec Ideal S50000x128 .f32 :=
  Host.dotGeneral dot_S50000x128_S128x128_S50000x128_1_0_0_1_n_n none x w
def dense64 (x : FVec Ideal S50000x128 .f32) (w : FVec Ideal S128x64 .f32) : FVec Ideal S50000x64 .f32 :=
  Host.dotGeneral dot_S50000x128_S128x64_S50000x64_1_0_0_1_n_n none x w

/-- The mean of each graph's rows (a graph with no node divides by 1), times `Wl`, plus `bl`. -/
def poolHead (h : FVec Ideal S50000x64 .f32) (batch : Vec Ideal S50000 .i32) (wl : FVec Ideal S64x64 .f32) (bl : FVec Ideal S64 .f32) : FVec Ideal S512x64 .f32 :=
  addf (Host.dotGeneral dot_S512x64_S64x64_S512x64_1_0_0_1_n_n none (Host.divf (Host.scatterAdd scatter_S512x64_S50000x1_S50000x64_1_0_0_1 (broadcastInDim S512x64 ![] bcast_S_S512x64 (constant (F := Ideal) S_ .f32 0x00000000#32)) (broadcastInDim S50000x1 ![0] bcast_S50000_S50000x1_0 batch) h) (broadcastInDim S512x64 ![0, 1] bcast_S512x1_S512x64_0_1 (broadcastInDim S512x1 ![0] bcast_S512_S512x1_0 (maximumf (Host.scatterAdd scatter_S512_S50000x1_S50000_n_0_0_1 (broadcastInDim S512 ![] bcast_S_S512 (constant (F := Ideal) S_ .f32 0x00000000#32)) (broadcastInDim S50000x1 ![0] bcast_S50000_S50000x1_0 batch) (broadcastInDim S50000 ![] bcast_S_S50000 (constant (F := Ideal) S_ .f32 0x3F800000#32))) (broadcastInDim S512 ![] bcast_S_S512 (constant (F := Ideal) S_ .f32 0x3F800000#32)))))) wl) (broadcastInDim S512x64 ![0, 1] bcast_S1x64_S512x64_0_1 (broadcastInDim S1x64 ![1] bcast_S64_S1x64_1 bl))

/-- The whole network, given its two dense products `d1`, `d2` and its two bias steps `a1`, `a2` as functions of
    their operands. -/
def networkWith (d1 : FVec Ideal S50000x128 .f32 → FVec Ideal S128x128 .f32 → FVec Ideal S50000x128 .f32)
    (a1 : FVec Ideal S50000x128 .f32 → FVec Ideal S128 .f32 → FVec Ideal S50000x128 .f32)
    (d2 : FVec Ideal S50000x128 .f32 → FVec Ideal S128x64 .f32 → FVec Ideal S50000x64 .f32)
    (a2 : FVec Ideal S50000x64 .f32 → FVec Ideal S64 .f32 → FVec Ideal S50000x64 .f32)
    (x : FVec Ideal S50000x128 .f32) (ei : Vec Ideal S2x800000 .i32) (batch : Vec Ideal S50000 .i32) (w1 : FVec Ideal S128x128 .f32) (b1 : FVec Ideal S128 .f32)
    (w2 : FVec Ideal S128x64 .f32) (b2 : FVec Ideal S64 .f32) (wl : FVec Ideal S64x64 .f32) (bl : FVec Ideal S64 .f32) : FVec Ideal S512x64 .f32 :=
  poolHead (a2 (propagate64 (d2 (a1 (propagate128 (d1 x w1) ei) b1) w2) ei) b2) batch wl bl

/-- The reference's result is the network with the host's own four steps: its composed term, regrouped. -/
theorem reference_result (m : (ℓ : Loc nD τ sig) → Buf (Elt Ideal) ℓ) (c : Dev nD) :
    Cert.ReferenceIdeal.ValueP.res_main_v110 (F := Ideal) m c
      = networkWith dense128 biasRelu128 dense64 bias64 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) := rfl

end Cert.Stages

end
-- ==== Proof.Fold.lean ====
/-
  The idealized kernel's result, read through the fold of its segments.

  The contents at the last boundary are a fold from the launch memory: a host stretch applies its operations, a region
  replaces its output array and keeps the rest. Read backwards from the result buffer:
    the last stretch pools and applies the head to region 3's output;
    region 3 adds the second bias to the second propagation; that propagates region 2's product;
    region 2 multiplies region 1's output by W2; region 1 adds the first bias to the first propagation, against 0;
    that propagates region 0's product of x and W1.
  The edge lists and the edge weights are computed once, before region 0, and nothing later writes them, so both
  propagations read the same ones; the arguments are written by nothing. Each host stretch is, operation for
  operation, the step of the same name in `Stages`, so the kernel's result is the network with the regions'
  two products and two bias steps in the places of the host's.
-/
import proofs.«161826_j63333587747173_1_alg».proof.Proof.Gen.KernelIdeal.Frame
import proofs.«161826_j63333587747173_1_alg».proof.Proof.RegionArrays
import proofs.«161826_j63333587747173_1_alg».proof.Proof.Stages
import Idealize.ShloMosaic.Lib.StableHlo.Run
import Idealize.ShloMosaic.Lib.ValueLayout

set_option maxRecDepth 16384

noncomputable section

namespace Cert.KernelIdeal.Fold

open Cert.KernelIdeal Cert.KernelIdeal.Gen Cert.KernelIdeal.Rows Cert.Stages
open Idealize.ShloMosaic Idealize.ShloMosaic.TcCoe Idealize.SL.Sem Idealize.ShloMosaic.StableHlo Idealize.ShloMosaic.ValueIdx

/-- A buffer that no operation of a host stretch writes keeps its contents across the stretch. -/
macro "untouched_by " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## The arguments, wherever a later segment reads them -/

theorem W3_arg0 : W3 m ρ c (Proc.devRef .tc main_arg0) = (m ((c : Thread nD τ).loc main_arg0)) :=
  calc W3 m ρ c (Proc.devRef .tc main_arg0)
    _ = W2 m ρ c (Proc.devRef .tc main_arg0) := by untouched_by hostOps0_2
    _ = W1 m ρ c (Proc.devRef .tc main_arg0) := by untouched_by hostOps0_1
    _ = W0 m ρ c (Proc.devRef .tc main_arg0) := by untouched_by hostOps0
    _ = (m ((c : Thread nD τ).loc main_arg0)) := rfl
theorem W3_arg3 : W3 m ρ c (Proc.devRef .tc main_arg3) = (m ((c : Thread nD τ).loc main_arg3)) :=
  calc W3 m ρ c (Proc.devRef .tc main_arg3)
    _ = W2 m ρ c (Proc.devRef .tc main_arg3) := by untouched_by hostOps0_2
    _ = W1 m ρ c (Proc.devRef .tc main_arg3) := by untouched_by hostOps0_1
    _ = W0 m ρ c (Proc.devRef .tc main_arg3) := by untouched_by hostOps0
    _ = (m ((c : Thread nD τ).loc main_arg3)) := rfl
theorem W3_arg4 : W3 m ρ c (Proc.devRef .tc main_arg4) = (m ((c : Thread nD τ).loc main_arg4)) :=
  calc W3 m ρ c (Proc.devRef .tc main_arg4)
    _ = W2 m ρ c (Proc.devRef .tc main_arg4) := by untouched_by hostOps0_2
    _ = W1 m ρ c (Proc.devRef .tc main_arg4) := by untouched_by hostOps0_1
    _ = W0 m ρ c (Proc.devRef .tc main_arg4) := by untouched_by hostOps0
    _ = (m ((c : Thread nD τ).loc main_arg4)) := rfl
theorem W3_arg5 : W3 m ρ c (Proc.devRef .tc main_arg5) = (m ((c : Thread nD τ).loc main_arg5)) :=
  calc W3 m ρ c (Proc.devRef .tc main_arg5)
    _ = W2 m ρ c (Proc.devRef .tc main_arg5) := by untouched_by hostOps0_2
    _ = W1 m ρ c (Proc.devRef .tc main_arg5) := by untouched_by hostOps0_1
    _ = W0 m ρ c (Proc.devRef .tc main_arg5) := by untouched_by hostOps0
    _ = (m ((c : Thread nD τ).loc main_arg5)) := rfl
theorem W3_arg6 : W3 m ρ c (Proc.devRef .tc main_arg6) = (m ((c : Thread nD τ).loc main_arg6)) :=
  calc W3 m ρ c (Proc.devRef .tc main_arg6)
    _ = W2 m ρ c (Proc.devRef .tc main_arg6) := by untouched_by hostOps0_2
    _ = W1 m ρ c (Proc.devRef .tc main_arg6) := by untouched_by hostOps0_1
    _ = W0 m ρ c (Proc.devRef .tc main_arg6) := by untouched_by hostOps0
    _ = (m ((c : Thread nD τ).loc main_arg6)) := rfl
theorem W4_arg4 : W4 m ρ c (Proc.devRef .tc main_arg4) = (m ((c : Thread nD τ).loc main_arg4)) := (W4_of_ne m ρ c main_arg4 (by decide)).trans (W3_arg4 m ρ c)
theorem W4_arg5 : W4 m ρ c (Proc.devRef .tc main_arg5) = (m ((c : Thread nD τ).loc main_arg5)) := (W4_of_ne m ρ c main_arg5 (by decide)).trans (W3_arg5 m ρ c)
theorem W4_arg6 : W4 m ρ c (Proc.devRef .tc main_arg6) = (m ((c : Thread nD τ).loc main_arg6)) := (W4_of_ne m ρ c main_arg6 (by decide)).trans (W3_arg6 m ρ c)
theorem W5_arg5 : W5 m ρ c (Proc.devRef .tc main_arg5) = (m ((c : Thread nD τ).loc main_arg5)) := (show W5 m ρ c (Proc.devRef .tc main_arg5) = W4 m ρ c (Proc.devRef .tc main_arg5) from by untouched_by hostOps1).trans (W4_arg5 m ρ c)
theorem W5_arg6 : W5 m ρ c (Proc.devRef .tc main_arg6) = (m ((c : Thread nD τ).loc main_arg6)) := (show W5 m ρ c (Proc.devRef .tc main_arg6) = W4 m ρ c (Proc.devRef .tc main_arg6) from by untouched_by hostOps1).trans (W4_arg6 m ρ c)
theorem W6_arg5 : W6 m ρ c (Proc.devRef .tc main_arg5) = (m ((c : Thread nD τ).loc main_arg5)) := (W6_of_ne m ρ c main_arg5 (by decide)).trans (W5_arg5 m ρ c)
theorem W6_arg6 : W6 m ρ c (Proc.devRef .tc main_arg6) = (m ((c : Thread nD τ).loc main_arg6)) := (W6_of_ne m ρ c main_arg6 (by decide)).trans (W5_arg6 m ρ c)
theorem W7_arg6 : W7 m ρ c (Proc.devRef .tc main_arg6) = (m ((c : Thread nD τ).loc main_arg6)) := (W7_of_ne m ρ c main_arg6 (by decide)).trans (W6_arg6 m ρ c)
theorem W9_arg2 : W9 m ρ c (Proc.devRef .tc main_arg2) = (m ((c : Thread nD τ).loc main_arg2)) := (show W10 m ρ c (Proc.devRef .tc main_arg2) = W9 m ρ c (Proc.devRef .tc main_arg2) from by untouched_by hostOps4).symm.trans (W10_main_arg2 m ρ c)
theorem W9_arg7 : W9 m ρ c (Proc.devRef .tc main_arg7) = (m ((c : Thread nD τ).loc main_arg7)) := (show W10 m ρ c (Proc.devRef .tc main_arg7) = W9 m ρ c (Proc.devRef .tc main_arg7) from by untouched_by hostOps4).symm.trans (W10_main_arg7 m ρ c)
theorem W9_arg8 : W9 m ρ c (Proc.devRef .tc main_arg8) = (m ((c : Thread nD τ).loc main_arg8)) := (show W10 m ρ c (Proc.devRef .tc main_arg8) = W9 m ρ c (Proc.devRef .tc main_arg8) from by untouched_by hostOps4).symm.trans (W10_main_arg8 m ρ c)

/-! ## The edge lists and the edge weights, computed before region 0 and carried to both propagations -/

theorem W1_src : W1 m ρ c (Proc.devRef .tc main_v5) = srcEnds (m ((c : Thread nD τ).loc main_arg1)) := by
  show StableHlo.after hostOps0 (W0 m ρ c) (Proc.devRef .tc main_v5) = _
  after_results_simp
  rfl
theorem W1_dst : W1 m ρ c (Proc.devRef .tc main_v6) = dstEnds (m ((c : Thread nD τ).loc main_arg1)) := by
  show StableHlo.after hostOps0 (W0 m ρ c) (Proc.devRef .tc main_v6) = _
  after_results_simp
  rfl
theorem W1_positive : W1 m ρ c (Proc.devRef .tc main_v12) = cmpf .ogt (degree (m ((c : Thread nD τ).loc main_arg1))) (broadcastInDim S50000 ![] bcast_S_S50000 (constant (F := Ideal) S_ .f32 0x00000000#32)) := by
  show StableHlo.after hostOps0 (W0 m ρ c) (Proc.devRef .tc main_v12) = _
  after_results_simp
  rfl
theorem W1_rsqrt : W1 m ρ c (Proc.devRef .tc main_v13) = Host.rsqrt (degree (m ((c : Thread nD τ).loc main_arg1))) := by
  show StableHlo.after hostOps0 (W0 m ρ c) (Proc.devRef .tc main_v13) = _
  after_results_simp
  rfl
theorem W1_zero : W1 m ρ c (Proc.devRef .tc main_cst_2) = (constant (F := Ideal) S_ .f32 0x00000000#32) := by
  show StableHlo.after hostOps0 (W0 m ρ c) (Proc.devRef .tc main_cst_2) = _
  after_results_simp

/-- The inverse square-root degrees, from any contents that hold the comparison, the inverse square root and the zero. -/
theorem invSqrt_of (V1 : Valuation τ sig (Elt Ideal)) (P : Vec Ideal S50000 .i1) (R : FVec Ideal S50000 .f32) (Z : FVec Ideal S_ .f32)
    (h12 : V1 (Proc.devRef .tc main_v12) = P) (h13 : V1 (Proc.devRef .tc main_v13) = R) (hz : V1 (Proc.devRef .tc main_cst_2) = Z) :
    StableHlo.after hostOps0_1 V1 (Proc.devRef .tc main_v14) = select P R (broadcastInDim S50000 ![] bcast_S_S50000 (id Z)) := by
  after_results
  rw [h12, h13, hz]
  rfl
theorem W2_invSqrt : W2 m ρ c (Proc.devRef .tc main_v14) = invSqrtDegree (m ((c : Thread nD τ).loc main_arg1)) :=
  invSqrt_of (W1 m ρ c) _ _ _ (W1_positive m ρ c) (W1_rsqrt m ρ c) (W1_zero m ρ c)
theorem W2_src : W2 m ρ c (Proc.devRef .tc main_v5) = srcEnds (m ((c : Thread nD τ).loc main_arg1)) :=
  calc W2 m ρ c (Proc.devRef .tc main_v5)
    _ = W1 m ρ c (Proc.devRef .tc main_v5) := by untouched_by hostOps0_1
    _ = srcEnds (m ((c : Thread nD τ).loc main_arg1)) := W1_src m ρ c
theorem W2_dst : W2 m ρ c (Proc.devRef .tc main_v6) = dstEnds (m ((c : Thread nD τ).loc main_arg1)) :=
  calc W2 m ρ c (Proc.devRef .tc main_v6)
    _ = W1 m ρ c (Proc.devRef .tc main_v6) := by untouched_by hostOps0_1
    _ = dstEnds (m ((c : Thread nD τ).loc main_arg1)) := W1_dst m ρ c
theorem W3_src : W3 m ρ c (Proc.devRef .tc main_v5) = srcEnds (m ((c : Thread nD τ).loc main_arg1)) :=
  calc W3 m ρ c (Proc.devRef .tc main_v5)
    _ = W2 m ρ c (Proc.devRef .tc main_v5) := by untouched_by hostOps0_2
    _ = srcEnds (m ((c : Thread nD τ).loc main_arg1)) := W2_src m ρ c
theorem W3_dst : W3 m ρ c (Proc.devRef .tc main_v6) = dstEnds (m ((c : Thread nD τ).loc main_arg1)) :=
  calc W3 m ρ c (Proc.devRef .tc main_v6)
    _ = W2 m ρ c (Proc.devRef .tc main_v6) := by untouched_by hostOps0_2
    _ = dstEnds (m ((c : Thread nD τ).loc main_arg1)) := W2_dst m ρ c
set_option maxHeartbeats 4000000 in
/-- The edge weights, from any contents that hold the inverse square-root degrees and the two edge lists. -/
theorem weight_of (V2 : Valuation τ sig (Elt Ideal)) (D : FVec Ideal S50000 .f32) (S T : Vec Ideal S850000 .i32)
    (hi : V2 (Proc.devRef .tc main_v14) = D) (hs : V2 (Proc.devRef .tc main_v5) = S) (hd : V2 (Proc.devRef .tc main_v6) = T) :
    StableHlo.after hostOps0_2 V2 (Proc.devRef .tc main_v29)
      = mulf (Host.gather gather_S50000_S850000x1_S850000_n_0_n_n_0_1_1 D (wrapped S)) (Host.gather gather_S50000_S850000x1_S850000_n_0_n_n_0_1_1 D (wrapped T)) := by
  after_results
  rw [hi, hs, hd]
  rfl
theorem W3_weight : W3 m ρ c (Proc.devRef .tc main_v29) = edgeWeight (m ((c : Thread nD τ).loc main_arg1)) :=
  weight_of (W2 m ρ c) _ _ _ (W2_invSqrt m ρ c) (W2_src m ρ c) (W2_dst m ρ c)
theorem W4_src : W4 m ρ c (Proc.devRef .tc main_v5) = srcEnds (m ((c : Thread nD τ).loc main_arg1)) := (W4_of_ne m ρ c main_v5 (by decide)).trans (W3_src m ρ c)
theorem W7_src : W7 m ρ c (Proc.devRef .tc main_v5) = srcEnds (m ((c : Thread nD τ).loc main_arg1)) :=
  calc W7 m ρ c (Proc.devRef .tc main_v5)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := by untouched_by hostOps1
    _ = srcEnds (m ((c : Thread nD τ).loc main_arg1)) := W4_src m ρ c
theorem W4_dst : W4 m ρ c (Proc.devRef .tc main_v6) = dstEnds (m ((c : Thread nD τ).loc main_arg1)) := (W4_of_ne m ρ c main_v6 (by decide)).trans (W3_dst m ρ c)
theorem W7_dst : W7 m ρ c (Proc.devRef .tc main_v6) = dstEnds (m ((c : Thread nD τ).loc main_arg1)) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by untouched_by hostOps1
    _ = dstEnds (m ((c : Thread nD τ).loc main_arg1)) := W4_dst m ρ c
theorem W4_weight : W4 m ρ c (Proc.devRef .tc main_v29) = edgeWeight (m ((c : Thread nD τ).loc main_arg1)) := (W4_of_ne m ρ c main_v29 (by decide)).trans (W3_weight m ρ c)
theorem W7_weight : W7 m ρ c (Proc.devRef .tc main_v29) = edgeWeight (m ((c : Thread nD τ).loc main_arg1)) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by untouched_by hostOps1
    _ = edgeWeight (m ((c : Thread nD τ).loc main_arg1)) := W4_weight m ρ c

/-! ## Region 0: the first product -/

theorem W4_product1 : W4 m ρ c (Proc.devRef .tc main_v30) = rowsTimes0 (m ((c : Thread nD τ).loc main_arg0)) (m ((c : Thread nD τ).loc main_arg3)) :=
  (W4_arr m ρ c 2).trans ((array0 (V3 m ρ) c).trans (by
    show rowsTimes0 (W3 m ρ c (Proc.devRef .tc main_arg0)) (W3 m ρ c (Proc.devRef .tc main_arg3)) = _
    rw [W3_arg0 m ρ c, W3_arg3 m ρ c]))

/-! ## The first propagation, and region 1: the first bias against 0 -/

set_option maxHeartbeats 4000000 in
theorem W5_propagated1 : W5 m ρ c (Proc.devRef .tc main_v43) = propagate128 (rowsTimes0 (m ((c : Thread nD τ).loc main_arg0)) (m ((c : Thread nD τ).loc main_arg3))) (m ((c : Thread nD τ).loc main_arg1)) := by
  show StableHlo.after hostOps1 (W4 m ρ c) (Proc.devRef .tc main_v43) = _
  after_results
  rw [W4_src m ρ c, W4_dst m ρ c, W4_weight m ρ c, W4_product1 m ρ c]
  rfl

theorem W5_bias1_row (q : Fin 128) : V5 m ρ c main_v44 (ix2 (0 : Fin 1) q) = (m ((c : Thread nD τ).loc main_arg4)) (ix1 q) := by
  show StableHlo.after hostOps1 (W4 m ρ c) (Proc.devRef .tc main_v44) (ix2 (0 : Fin 1) q) = _
  after_results
  rw [W4_arg4 m ρ c]
  exact shapeCast_a_1a_apply _ _ 0 q

theorem W6_layer1 : W6 m ρ c (Proc.devRef .tc main_v45) = plusRow1 (propagate128 (rowsTimes0 (m ((c : Thread nD τ).loc main_arg0)) (m ((c : Thread nD τ).loc main_arg3))) (m ((c : Thread nD τ).loc main_arg1))) (m ((c : Thread nD τ).loc main_arg4)) :=
  (W6_arr m ρ c 2).trans ((array1 (V5 m ρ) c (m ((c : Thread nD τ).loc main_arg4)) (W5_bias1_row m ρ c)).trans (by
    show plusRow1 (W5 m ρ c (Proc.devRef .tc main_v43)) _ = _
    rw [W5_propagated1 m ρ c]))

/-! ## Region 2: the second product -/

theorem W7_product2 : W7 m ρ c (Proc.devRef .tc main_v46) = rowsTimes2 (plusRow1 (propagate128 (rowsTimes0 (m ((c : Thread nD τ).loc main_arg0)) (m ((c : Thread nD τ).loc main_arg3))) (m ((c : Thread nD τ).loc main_arg1))) (m ((c : Thread nD τ).loc main_arg4))) (m ((c : Thread nD τ).loc main_arg5)) :=
  (W7_arr m ρ c 2).trans ((array2 (V6 m ρ) c).trans (by
    show rowsTimes2 (W6 m ρ c (Proc.devRef .tc main_v45)) (W6 m ρ c (Proc.devRef .tc main_arg5)) = _
    rw [W6_layer1 m ρ c, W6_arg5 m ρ c]))

/-! ## The second propagation, and region 3: the second bias -/

set_option maxHeartbeats 4000000 in
theorem W8_propagated2 : W8 m ρ c (Proc.devRef .tc main_v59) = propagate64 (rowsTimes2 (plusRow1 (propagate128 (rowsTimes0 (m ((c : Thread nD τ).loc main_arg0)) (m ((c : Thread nD τ).loc main_arg3))) (m ((c : Thread nD τ).loc main_arg1))) (m ((c : Thread nD τ).loc main_arg4))) (m ((c : Thread nD τ).loc main_arg5))) (m ((c : Thread nD τ).loc main_arg1)) := by
  show StableHlo.after hostOps3 (W7 m ρ c) (Proc.devRef .tc main_v59) = _
  after_results
  rw [W7_src m ρ c, W7_dst m ρ c, W7_weight m ρ c, W7_product2 m ρ c]
  rfl

theorem W8_bias2_row (q : Fin 64) : V8 m ρ c main_v60 (ix2 (0 : Fin 1) q) = (m ((c : Thread nD τ).loc main_arg6)) (ix1 q) := by
  show StableHlo.after hostOps3 (W7 m ρ c) (Proc.devRef .tc main_v60) (ix2 (0 : Fin 1) q) = _
  after_results
  rw [W7_arg6 m ρ c]
  exact shapeCast_a_1a_apply _ _ 0 q

theorem W9_layer2 : W9 m ρ c (Proc.devRef .tc main_v61) = plusRow3 (propagate64 (rowsTimes2 (plusRow1 (propagate128 (rowsTimes0 (m ((c : Thread nD τ).loc main_arg0)) (m ((c : Thread nD τ).loc main_arg3))) (m ((c : Thread nD τ).loc main_arg1))) (m ((c : Thread nD τ).loc main_arg4))) (m ((c : Thread nD τ).loc main_arg5))) (m ((c : Thread nD τ).loc main_arg1))) (m ((c : Thread nD τ).loc main_arg6)) :=
  (W9_arr m ρ c 2).trans ((array3 (V8 m ρ) c (m ((c : Thread nD τ).loc main_arg6)) (W8_bias2_row m ρ c)).trans (by
    show plusRow3 (W8 m ρ c (Proc.devRef .tc main_v59)) _ = _
    rw [W8_propagated2 m ρ c]))

/-! ## The last stretch: the pooling and the head -/

set_option maxHeartbeats 4000000 in
/-- The idealized kernel's result buffer at the last boundary: the network with the regions' products and bias steps. -/
theorem result : W10 m ρ c (Proc.devRef .tc main_v77)
    = networkWith rowsTimes0 plusRow1 rowsTimes2 plusRow3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps4 (W9 m ρ c) (Proc.devRef .tc main_v77) = _
  after_results
  rw [W9_layer2 m ρ c, W9_arg2 m ρ c, W9_arg7 m ρ c, W9_arg8 m ρ c]
  rfl

end Cert.KernelIdeal.Fold

end
-- ==== Proof.LibRowBroadcast.lean ====
/-
  A vector laid out as one row and then repeated down the rows, read at an index.

  The host broadcasts a length-n vector b first to a [1, n] array (along axis 1) and then to an [a, n] array
  (along both axes, the unit axis stretched). Entry (p, q) of the result is b (q), whatever the row p.
-/
import Idealize.ShloMosaic.Lib.Pipeline.Value
import Idealize.ShloMosaic.Lib.ValueIdx

namespace Idealize.ShloMosaic.RowBroadcast

open Idealize.ShloMosaic Idealize.ShloMosaic.ValueIdx

/-- A vector made one row and then every row of an [a, n] array, read at (p, q), is its entry q. -/
theorem rowsOf_apply {α : Type} {a n : Nat} (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![a, n]⟩ ![0, 1]) (p : Fin a) (q : Fin n) :
    broadcastInDim ⟨2, ![a, n]⟩ ![0, 1] h2 (broadcastInDim ⟨2, ![1, n]⟩ ![1] h1 b) (ix2 p q) = b (ix1 q) := by
  rw [broadcastInDim_apply ![0, 1] h2 _ (ix2 p q) (ix2 (0 : Fin 1) q) (fun ax => by
    match ax with
    | ⟨0, _⟩ => rfl
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

end Idealize.ShloMosaic.RowBroadcast
-- ==== Proof.SameSteps.lean ====
/-
  The kernel regions' arrays are the host's steps.

  A matrix-product region leaves the array whose entry (p, q) is the sum over k of a (p, k) · w (k, q); the host's
  `dot_general` over the same two arrays has the same entries, so the two arrays are equal. A bias region leaves
  a (p, q) + b (q), against 0 in the first layer; the host broadcasts b to one row and then down the rows, adds,
  and in the first layer takes the maximum with a zero array: again the same entries. None of this uses more than
  the definitions, so it holds at the infinities too.
-/
import proofs.«161826_j63333587747173_1_alg».proof.Proof.RegionArrays
import proofs.«161826_j63333587747173_1_alg».proof.Proof.Stages
import proofs.«161826_j63333587747173_1_alg».proof.Proof.LibRowBroadcast

set_option maxRecDepth 16384

noncomputable section

namespace Cert.SameSteps

open Idealize.ShloMosaic Idealize.ShloMosaic.TcCoe Idealize.ShloMosaic.ValueIdx Cert.Stages Cert.KernelIdeal.Rows

/-- The first layer's product. -/
theorem rowsTimes0_eq : rowsTimes0 = dense128 := by
  funext x w i
  obtain ⟨p, q, rfl⟩ : ∃ (p : Fin 50000) (q : Fin 128), i = ix2 p q := ⟨i 0, i 1, eq_ix2 i⟩
  exact (PlainDot.dotGeneral_apply Cert.ReferenceIdeal.dot_S50000x128_S128x128_S50000x128_1_0_0_1_n_n rfl rfl rfl rfl rfl rfl rfl rfl none .single x w p q).symm

/-- The second layer's product. -/
theorem rowsTimes2_eq : rowsTimes2 = dense64 := by
  funext x w i
  obtain ⟨p, q, rfl⟩ : ∃ (p : Fin 50000) (q : Fin 64), i = ix2 p q := ⟨i 0, i 1, eq_ix2 i⟩
  exact (PlainDot.dotGeneral_apply Cert.ReferenceIdeal.dot_S50000x128_S128x64_S50000x64_1_0_0_1_n_n rfl rfl rfl rfl rfl rfl rfl rfl none .single x w p q).symm

/-- The first layer's bias and maximum with 0. -/
theorem plusRow1_eq : plusRow1 = biasRelu128 := by
  funext a b i
  obtain ⟨p, q, rfl⟩ : ∃ (p : Fin 50000) (q : Fin 128), i = ix2 p q := ⟨i 0, i 1, eq_ix2 i⟩
  unfold plusRow1 biasRelu128
  show _ = max (a (ix2 p q) + broadcastInDim Cert.ReferenceIdeal.S50000x128 ![0, 1] Cert.ReferenceIdeal.Gen.bcast_S1x128_S50000x128_0_1 (broadcastInDim Cert.ReferenceIdeal.S1x128 ![1] Cert.ReferenceIdeal.Gen.bcast_S128_S1x128_1 b) (ix2 p q)) _
  rw [RowBroadcast.rowsOf_apply b Cert.ReferenceIdeal.Gen.bcast_S128_S1x128_1 Cert.ReferenceIdeal.Gen.bcast_S1x128_S50000x128_0_1 p q]
  rfl

/-- The second layer's bias. -/
theorem plusRow3_eq : plusRow3 = bias64 := by
  funext a b i
  obtain ⟨p, q, rfl⟩ : ∃ (p : Fin 50000) (q : Fin 64), i = ix2 p q := ⟨i 0, i 1, eq_ix2 i⟩
  unfold plusRow3 bias64
  show _ = a (ix2 p q) + broadcastInDim Cert.ReferenceIdeal.S50000x64 ![0, 1] Cert.ReferenceIdeal.Gen.bcast_S1x64_S50000x64_0_1 (broadcastInDim Cert.ReferenceIdeal.S1x64 ![1] Cert.ReferenceIdeal.Gen.bcast_S64_S1x64_1 b) (ix2 p q)
  rw [RowBroadcast.rowsOf_apply b Cert.ReferenceIdeal.Gen.bcast_S64_S1x64_1 Cert.ReferenceIdeal.Gen.bcast_S1x64_S50000x64_0_1 p q]

end Cert.SameSteps

end
-- ==== Proof.lean ====
/-
  The certificate of a two-layer graph convolution network with mean pooling and a linear head.

  Both programs compute, on the extended reals,
      pool ( propagate ( relu ( propagate (x · W1) + b1 ) · W2 ) + b2 ) · Wl + bl.
  The kernel does the two dense products and the two bias steps in four tiled kernel regions (five blocks of 10000
  rows each; the float-format changes inside are the identity on the extended reals) and everything else on the host;
  the reference does every step on the host. The host steps are the same operations in both programs; a region's
  output array is, entry by entry, the host step it stands for: a row of a product depends only on that row of the
  left operand, and a bias step is entrywise. So the two results are one function of the arguments. No step of the
  argument divides, cancels or distributes, so the finiteness of the inputs is never used.

  Frames: the kernel's two frames are the generated ones; the reference's frame is its run with the result dropped.
  The idealization rewrote nothing, so `preserves` is trivial.
-/
import proofs.«161826_j63333587747173_1_alg».proof.Defs
import proofs.«161826_j63333587747173_1_alg».proof.Proof.Gen.Kernel
import proofs.«161826_j63333587747173_1_alg».proof.Proof.Gen.Kernel.Frame
import proofs.«161826_j63333587747173_1_alg».proof.Proof.Gen.KernelIdeal
import proofs.«161826_j63333587747173_1_alg».proof.Proof.Gen.KernelIdeal.Frame
import proofs.«161826_j63333587747173_1_alg».proof.Proof.Gen.ReferenceIdeal
import proofs.«161826_j63333587747173_1_alg».proof.Proof.Gen.Pre_finite_inputs
import proofs.«161826_j63333587747173_1_alg».proof.Proof.ReferenceRun
import proofs.«161826_j63333587747173_1_alg».proof.Proof.WholeRun
import proofs.«161826_j63333587747173_1_alg».proof.Proof.Fold
import proofs.«161826_j63333587747173_1_alg».proof.Proof.SameSteps
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result buffer at the network of their arguments: the kernel's with the regions' four
    steps, which are the host's four steps (`SameSteps`), and the two memories agree on the arguments. -/
theorem algebraic : Cert.algebraic_KernelIdeal_ReferenceIdeal := by
  intro m ρ m' ρ' _ hagree
  refine ⟨fun c => Cert.Stages.networkWith Cert.Stages.dense128 Cert.Stages.biasRelu128 Cert.Stages.dense64 Cert.Stages.bias64
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩)
      (Cert.KernelIdeal.WholeRun.run_result (F := Ideal) m ρ)
    rw [Cert.KernelIdeal.Fold.result m ρ c, Cert.SameSteps.rowsTimes0_eq, Cert.SameSteps.plusRow1_eq,
      Cert.SameSteps.rowsTimes2_eq, Cert.SameSteps.plusRow3_eq]
  · refine (θ_run Cert.ReferenceIdeal.defs _ _).mono (fun r h c => ⟨(h c).1.trans ?_, (h c).2⟩)
      (Cert.ReferenceIdeal.ValueP.run (F := Ideal) m' ρ')
    rw [Cert.Stages.reference_result m' c, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
